-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S256x2048 .f32
  ∧ IdealRules.sign_bit.Statement Cert.KernelIdeal.S256x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16384x2048 .f32) (main_arg1 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S16384x2048 : Shape := ⟨2, ![16384, 2048]⟩
abbrev S2048x2048 : Shape := ⟨2, ![2048, 2048]⟩
abbrev S256x2048 : Shape := ⟨2, ![256, 2048]⟩
abbrev S512x2048 : Shape := ⟨2, ![512, 2048]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .bf16⟩
  | .hbm, ⟨3, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S16384x2048.size a
  hwx1_2 : ∀ i : grid1.Coords, EltTy.bits .f32 = 32 ∨ (Rect.block (s := S16384x2048) S512x2048.size (cc1_transform_2 i) (hinb1_2 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  transposes_S2048x2048_S2048x2048_1_0 : S2048x2048.Transposes [1, 0] S2048x2048
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Spec.lean ====
/-
  The function both programs compute, stated once over the extended reals.

  A weight entry `w` is binarized by the two-level sign `bin w = sign (sign w + 1/2)`: `sign w` is `-1`, `0` or `1`,
  so `sign w + 1/2` is `-1/2`, `1/2` or `3/2` and `bin w` is `-1` for a negative `w` and `1` otherwise (the
  infinities included). The result at row `p`, column `q` is the dense product against the TRANSPOSED binarized
  weight: `∑ k, x[p, k] · bin (w[q, k])` over the 2048 contraction positions.
-/
import Idealize.ShloMosaic.PureOps.Ideal.Laws
import Idealize.ShloMosaic.Lib.ValueIdx

noncomputable section

open scoped BigOperators

namespace Cert.BinaryDense

open Idealize.ShloMosaic Idealize.ShloMosaic.ValueIdx

/-- The activations' shape, and the result's: 16384 rows of 2048. -/
abbrev SX : Shape := ⟨2, ![16384, 2048]⟩
/-- The weight's shape: 2048 output features, each a row of 2048 input features. -/
abbrev SW : Shape := ⟨2, ![2048, 2048]⟩

/-- The two-level sign of a weight entry: the sign of (its sign plus one half). -/
def bin (w : EReal) : EReal := Ideal.sign (Ideal.sign w + Ideal.ofBits .f32 0x3F000000#32)

/-- The row of a result index, as a number below 16384. -/
abbrev rowOf (i : SX.Idx) : Fin 16384 := ⟨(i 0).val, (i 0).isLt⟩
/-- The column of a result index, as a number below 2048. -/
abbrev colOf (i : SX.Idx) : Fin 2048 := ⟨(i 1).val, (i 1).isLt⟩

/-- The product of `x` with the transpose of `b`: entry (p, q) is the sum over `k` of `x[p, k] · b[q, k]`. -/
def dense (x : SX.Idx → EReal) (b : SW.Idx → EReal) : SX.Idx → EReal :=
  fun i => ∑ k : Fin 2048, x (ix2 (rowOf i) k) * b (ix2 (colOf i) k)

/-- The binarized weight, entry by entry. -/
def binW (w : SW.Idx → EReal) : SW.Idx → EReal := fun j => bin (w j)

/-- The whole result: the activations against the binarized weight. -/
def G (x : SX.Idx → EReal) (w : SW.Idx → EReal) : SX.Idx → EReal :=
  dense x (binW w)

/-- The sign spelt by comparisons and selects, as a kernel body writes `jnp.sign`, taken twice with one half added
    in between, is `bin`. -/
theorem select_sign_twice (a : Ideal .f32) :
    (let s : Ideal .f32 := Scalar.select (FloatOps.cmpf .ogt (FloatOps.absf a) (Scalar.ofBits .f32 0x00000000#32))
        (Scalar.select (FloatOps.cmpf .olt a (Scalar.ofBits .f32 0x00000000#32)) (Scalar.ofBits .f32 0xBF800000#32)
          (Scalar.ofBits .f32 0x3F800000#32)) a
     let h : Ideal .f32 := FloatOps.addf s (Scalar.ofBits .f32 0x3F000000#32)
     Scalar.select (FloatOps.cmpf .ogt (FloatOps.absf h) (Scalar.ofBits .f32 0x00000000#32))
        (Scalar.select (FloatOps.cmpf .olt h (Scalar.ofBits .f32 0x00000000#32)) (Scalar.ofBits .f32 0xBF800000#32)
          (Scalar.ofBits .f32 0x3F800000#32)) h) = bin a := by
  dsimp only
  rw [Ideal.jnp_sign_eq_sign_f32, Ideal.jnp_sign_eq_sign_f32]
  rfl

end Cert.BinaryDense

end
-- ==== Proof.RefValue.lean ====
/-
  The reference's result is `G` of its two arguments.

  The reference takes the host's sign of the weight, adds one half, takes the sign again, transposes, and contracts the
  activations' second axis against the transposed array's first. Read at a result index (p, q): the contraction's
  k-th term is `x[p, k]` times the transposed array at (k, q), which is the binarized weight at (q, k); the host's
  sign is the extended reals' `sign`, so that factor is `bin (w[q, k])`.
-/
import proofs.«139674_j51719996178701_2_alg».proof.Proof.Gen.ReferenceIdeal.Read
import proofs.«139674_j51719996178701_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.BinaryDense

/-- The left operand's index of the k-th term at result index `i` is (row of `i`, k). -/
theorem left_index (i : S16384x2048.Idx) (k : Fin 2048) : lidx_main_v5 i k = ix2 (rowOf i) k :=
  funext fun a => Fin.ext (by match a with | ⟨0, _⟩ => rfl | ⟨1, _⟩ => rfl)

/-- The right operand's index, carried back through the transposition, is (column of `i`, k). -/
theorem right_index (i : S16384x2048.Idx) (k : Fin 2048) : idx_main_v4 (ridx_main_v5 i k) = ix2 (colOf i) k :=
  funext fun a => Fin.ext (by match a with | ⟨0, _⟩ => rfl | ⟨1, _⟩ => rfl)

/-- The reference's last stage, as a function of the two arguments, is `G`. -/
theorem result_eq (x : (⟨S16384x2048, .f32⟩ : BufTy).Contents (Elt Ideal)) (w : (⟨S2048x2048, .f32⟩ : BufTy).Contents (Elt Ideal)) :
    val_main_v5 (F := Ideal) x w = G x w := by
  funext i
  rw [val_main_v5_apply]
  unfold G dense
  refine Finset.sum_congr rfl fun k _ => ?_
  rw [val_main_v4_apply, val_main_v3_apply, val_main_v2_apply, val_main_v0_apply, val_main_v1_apply, val_main_cst_apply,
    left_index, right_index]
  rfl

end Cert.ReferenceIdeal.RefValue

end
-- ==== Proof.BinValue.lean ====
/-
  The first kernel call leaves the binarized weight in its output array.

  The call walks the weight in 8 blocks of 256 whole rows; at block `t` the body loads rows 256·t … 256·t + 255,
  applies the two-level sign entry by entry (the narrowing to sixteen bits changes no extended real) and stores the
  block at the same rows of the output. So what point `t` writes back is block `t` of the array `binW` of the weight
  as the call finds it, the 8 blocks cover the output, and the output ends at `binW` of the weight — for any contents
  `V` of the buffers at the call's entry.
-/
import proofs.«139674_j51719996178701_2_alg».proof.Proof.Gen.KernelIdeal.Frame
import proofs.«139674_j51719996178701_2_alg».proof.Proof.Spec
import Idealize.ShloMosaic.Lib.Pipeline.Value

noncomputable section

namespace Cert.KernelIdeal.BinValue

open Cert.KernelIdeal Cert.KernelIdeal.Gen Idealize.ShloMosaic Idealize.ShloMosaic.TcCoe Idealize.SL.Sem
open Idealize.ShloMosaic.ValueIdx Cert.BinaryDense
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at an entry is the two-level sign of the loaded entry. -/
theorem stored_apply (v0 : Vec Ideal S256x2048 .f32) (j : S256x2048.Idx) : k0_pay1 (F := Ideal) v0 j = bin (v0 j) :=
  select_sign_twice (v0 j)

/-- Over the 8 grid points: the input block and the output block sit at the same block index, which is (t, 0). -/
theorem block_index : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- What point `t` writes back is block `t` of the binarized weight. -/
theorem flushed_eq (c : Dev nD) (t : Fin cfg0.N) :
    (dat0 V c).flushed 1 t = ((cfg0.win 1).blk t).view.read (Elt Ideal) (binW (V c main_arg1)) := by
  show (cfg0.win 1).cut (grid0.coords t) ((dat0 V c).after 1 t) = _
  rw [after0_1]
  unfold out0_1
  rw [View.canon_unit_zero zero_offsets]
  simp only [View.ld_unit_zero (S := S256x2048) zero_offsets]
  obtain ⟨e0, e1, -, -⟩ := block_index t
  funext j
  show k0_pay1 (F := Ideal) (iblk0 V c 0 t) j = bin (V c main_arg1 (((cfg0.win 1).blk t).view.emb j))
  rw [stored_apply]
  show bin (V c main_arg1 (((cfg0.win 0).blk t).view.emb j)) = _
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 2048 + 1 * (j 1).val = win0_1.index t (1 : Fin 2) * 2048 + 1 * (j 1).val; omega
  rw [h0]

/-- An index of the output is in point `t`'s block iff each coordinate is in the block's range on its axis. -/
theorem mem_block (t : Fin cfg0.N) (i : S2048x2048.Idx) :
    i ∈ ((cfg0.win 1).blk t).view.set ↔ ∀ a : Fin 2, win0_1.index t a * S256x2048.size a ≤ (i a).val ∧ (i a).val < win0_1.index t a * S256x2048.size a + S256x2048.size a := by
  show i ∈ ((View.whole main_v0).slice (win0_1.rect t)).set ↔ _
  rw [View.set_slice_whole, Rect.mem_set_unit]
  exact Iff.rfl

/-- Row `r` of the output lies in block `r / 256`: the blocks cover the array. -/
theorem cover (i : S2048x2048.Idx) : ∃ t : Fin cfg0.N, (cfg0.win 1).flush t = true ∧ i ∈ ((cfg0.win 1).blk t).view.set := by
  have hi0 : (i 0).val < 2048 := (i 0).isLt
  have hi1 : (i 1).val < 2048 := (i 1).isLt
  have hN : grid0.N = 8 := N_0
  have ht : (i 0).val / 256 < cfg0.N := by show (i 0).val / 256 < grid0.N; rw [hN]; omega
  obtain ⟨-, -, q0, q1⟩ := block_index ⟨(i 0).val / 256, ht⟩
  refine ⟨⟨(i 0).val / 256, ht⟩, flush0_1 _, ?_⟩
  rw [mem_block]
  intro a
  match a with
  | ⟨0, _⟩ =>
    show win0_1.index ⟨(i 0).val / 256, ht⟩ (0 : Fin 2) * 256 ≤ (i 0).val ∧ (i 0).val < win0_1.index ⟨(i 0).val / 256, ht⟩ (0 : Fin 2) * 256 + 256
    rw [q0]; show (i 0).val / 256 * 256 ≤ (i 0).val ∧ (i 0).val < (i 0).val / 256 * 256 + 256; omega
  | ⟨1, _⟩ =>
    show win0_1.index ⟨(i 0).val / 256, ht⟩ (1 : Fin 2) * 2048 ≤ (i 1).val ∧ (i 1).val < win0_1.index ⟨(i 0).val / 256, ht⟩ (1 : Fin 2) * 2048 + 2048
    rw [q1]; omega

/-- After the call its output array is the binarized weight. -/
theorem final (c : Dev nD) : (dat0 V c).arrAt 1 cfg0.N = binW (V c main_arg1) :=
  (dat0 V c).arrAt_eq_of_cover 1 (binW (V c main_arg1)) (fun t _ => flushed_eq V c t) cover

end Cert.KernelIdeal.BinValue

end
-- ==== Proof.DenseValue.lean ====
/-
  The second kernel call leaves the dense product in its output array.

  The call walks the activations in 32 blocks of 512 whole rows and keeps the whole binarized array `b` (its second
  operand, 2048 × 2048) staged throughout. At block `t` the body contracts the second axis of the 512 loaded rows
  against the second axis of `b`, into a zero accumulator: entry (p, q) of the stored block is `∑ k, rows[p, k] · b[q, k]`
  (the narrowing of the rows to sixteen bits changes no extended real). Row `p` of block `t` is row 512·t + p of the
  activations, so point `t` writes back block `t` of `dense x b`; the 32 blocks cover the output, which ends at
  `dense x b` — for any contents `V` of the buffers at the call's entry.
-/
import proofs.«139674_j51719996178701_2_alg».proof.Proof.Gen.KernelIdeal.Frame
import proofs.«139674_j51719996178701_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.DenseValue

open Cert.KernelIdeal Cert.KernelIdeal.Gen Idealize.ShloMosaic Idealize.ShloMosaic.TcCoe Idealize.SL.Sem
open Idealize.ShloMosaic.ValueIdx Cert.BinaryDense
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's contraction: both operands contract their second axis. -/
abbrev dims : DotDims S512x2048 S2048x2048 S512x2048 := dot_S512x2048_S2048x2048_S512x2048_1_1_0_0_n_n

/-- A term's left index keeps the entry's row … -/
theorem left_row (i : S512x2048.Idx) (κ : dims.contr.Idx) : (dims.lhsIdx i κ 0).val = (i 0).val := by
  unfold DotDims.lhsIdx
  rw [dif_neg (show ¬(0 : Fin S512x2048.rank) ∈ dims.lhsBatch by decide), dif_pos (show (0 : Fin S512x2048.rank) ∈ dims.lhsNonContracting by decide)]
  rfl
/-- … and a term's right index takes the entry's column as its row. -/
theorem right_row (i : S512x2048.Idx) (κ : dims.contr.Idx) : (dims.rhsIdx i κ 0).val = (i 1).val := by
  unfold DotDims.rhsIdx
  rw [dif_neg (show ¬(0 : Fin S2048x2048.rank) ∈ dims.rhsBatch by decide), dif_pos (show (0 : Fin S2048x2048.rank) ∈ dims.rhsNonContracting by decide)]
  rfl

/-- The left operand's index of the k-th term at entry (p, q) is (p, k). -/
theorem left_index (p : Fin 512) (q k : Fin 2048) :
    dims.lhsIdx (ix2 p q) ((contrEquiv1 dims 2048 rfl rfl).symm k) = ix2 p k := by
  have hk := contrEquiv1_symm_val dims 2048 rfl rfl k
  funext a; apply Fin.ext
  match a with
  | ⟨0, _⟩ => exact left_row _ _
  | ⟨1, _⟩ => exact (dims.lhsIdx_val_of_single rfl _ _).trans hk

/-- The right operand's index of the k-th term at entry (p, q) is (q, k). -/
theorem right_index (p : Fin 512) (q k : Fin 2048) :
    dims.rhsIdx (ix2 p q) ((contrEquiv1 dims 2048 rfl rfl).symm k) = ix2 q k := by
  have hk := contrEquiv1_symm_val dims 2048 rfl rfl k
  funext a; apply Fin.ext
  match a with
  | ⟨0, _⟩ => exact right_row _ _
  | ⟨1, _⟩ => exact (dims.rhsIdx_val_of_single rfl _ _).trans hk

/-- The body's stored value at entry (p, q): the sum over `k` of the loaded rows at (p, k) times the staged array at (q, k). -/
theorem stored_apply (x0 : Vec Ideal S512x2048 .f32) (x1 : Vec Ideal S2048x2048 .bf16) (p : Fin 512) (q : Fin 2048) :
    k1_pay1 (F := Ideal) x0 x1 (ix2 p q) = ∑ k : Fin 2048, x0 (ix2 p k) * x1 (ix2 q k) := by
  unfold k1_pay1
  refine (Ideal.matmul_constant_zero_apply dims none _ _ (ix2 p q)).trans ?_
  rw [← Equiv.sum_comp (contrEquiv1 dims 2048 rfl rfl).symm]
  refine Finset.sum_congr rfl fun k _ => ?_
  rw [left_index, right_index, shapeCast_self]
  rfl

/-- Over the 32 grid points: the activations' block and the output's block sit at block index (t, 0), the staged
    array's at (0, 0). -/
theorem block_index : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the dense product of the two arrays as the call finds them. -/
theorem flushed_eq (c : Dev nD) (t : Fin cfg1.N) :
    (dat1 V c).flushed 2 t = ((cfg1.win 2).blk t).view.read (Elt Ideal) (dense (V c main_arg0) (V c main_v0)) := by
  show (cfg1.win 2).cut (grid1.coords t) ((dat1 V c).after 2 t) = _
  rw [after1_2]
  unfold out1_2
  rw [View.canon_unit_zero zero_offsets]
  simp only [View.ld_unit_zero (S := S512x2048) zero_offsets, View.ld_unit_zero (S := S2048x2048) zero_offsets]
  obtain ⟨e0, e1, e2, e3, e4, e5⟩ := block_index t
  funext j
  obtain ⟨p, q, rfl⟩ : ∃ (p : Fin 512) (q : Fin 2048), j = ix2 p q := ⟨j 0, j 1, eq_ix2 j⟩
  show k1_pay1 (F := Ideal) (iblk1 V c 0 t) (iblk1 V c 1 t) (ix2 p q)
    = dense (V c main_arg0) (V c main_v0) (((cfg1.win 2).blk t).view.emb (ix2 p q))
  refine (stored_apply _ _ p q).trans ?_
  unfold dense
  refine Finset.sum_congr rfl fun k _ => ?_
  have hx : iblk1 V c 0 t (ix2 p k) = V c main_arg0 (ix2 (rowOf (((cfg1.win 2).blk t).view.emb (ix2 p q))) k) := by
    show V c main_arg0 (((cfg1.win 0).blk t).view.emb (ix2 p k)) = _
    refine congrArg (V c main_arg0) ?_
    funext a; apply Fin.ext
    match a with
    | ⟨0, _⟩ => show win1_0.index t (0 : Fin 2) * 512 + 1 * p.val = win1_2.index t (0 : Fin 2) * 512 + 1 * p.val; omega
    | ⟨1, _⟩ => show win1_0.index t (1 : Fin 2) * 2048 + 1 * k.val = k.val; omega
  have hb : iblk1 V c 1 t (ix2 q k) = V c main_v0 (ix2 (colOf (((cfg1.win 2).blk t).view.emb (ix2 p q))) k) := by
    show V c main_v0 (((cfg1.win 1).blk t).view.emb (ix2 q k)) = _
    refine congrArg (V c main_v0) ?_
    funext a; apply Fin.ext
    match a with
    | ⟨0, _⟩ => show win1_1.index t (0 : Fin 2) * 2048 + 1 * q.val = win1_2.index t (1 : Fin 2) * 2048 + 1 * q.val; omega
    | ⟨1, _⟩ => show win1_1.index t (1 : Fin 2) * 2048 + 1 * k.val = k.val; omega
  rw [hx, hb]

/-- An index of the output is in point `t`'s block iff each coordinate is in the block's range on its axis. -/
theorem mem_block (t : Fin cfg1.N) (i : S16384x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v1).slice (win1_2.rect t)).set ↔ _
  rw [View.set_slice_whole, Rect.mem_set_unit]
  exact Iff.rfl

/-- Row `r` of the output lies in block `r / 512`: the blocks cover the array. -/
theorem cover (i : S16384x2048.Idx) : ∃ t : Fin cfg1.N, (cfg1.win 2).flush t = true ∧ i ∈ ((cfg1.win 2).blk t).view.set := by
  have hi0 : (i 0).val < 16384 := (i 0).isLt
  have hi1 : (i 1).val < 2048 := (i 1).isLt
  have hN : grid1.N = 32 := N_1
  have ht : (i 0).val / 512 < cfg1.N := by show (i 0).val / 512 < grid1.N; rw [hN]; omega
  obtain ⟨-, -, -, -, q0, q1⟩ := block_index ⟨(i 0).val / 512, ht⟩
  refine ⟨⟨(i 0).val / 512, ht⟩, flush1_2 _, ?_⟩
  rw [mem_block]
  intro a
  match a with
  | ⟨0, _⟩ =>
    show win1_2.index ⟨(i 0).val / 512, ht⟩ (0 : Fin 2) * 512 ≤ (i 0).val ∧ (i 0).val < win1_2.index ⟨(i 0).val / 512, ht⟩ (0 : Fin 2) * 512 + 512
    rw [q0]; show (i 0).val / 512 * 512 ≤ (i 0).val ∧ (i 0).val < (i 0).val / 512 * 512 + 512; omega
  | ⟨1, _⟩ =>
    show win1_2.index ⟨(i 0).val / 512, ht⟩ (1 : Fin 2) * 2048 ≤ (i 1).val ∧ (i 1).val < win1_2.index ⟨(i 0).val / 512, ht⟩ (1 : Fin 2) * 2048 + 2048
    rw [q1]; omega

/-- After the call its output array is the dense product of its two operands' arrays. -/
theorem final (c : Dev nD) : (dat1 V c).arrAt 2 cfg1.N = dense (V c main_arg0) (V c main_v0) :=
  (dat1 V c).arrAt_eq_of_cover 2 (dense (V c main_arg0) (V c main_v0)) (fun t _ => flushed_eq V c t) cover

end Cert.KernelIdeal.DenseValue

end
-- ==== Proof.ProgramRun.lean ====
/-
  The whole program's run with its result NAMED.

  The program is two kernel calls in a row. Every weakly fair execution from a memory with zero counters terminates
  without a fault; the final memory holds, at the result buffer, what the second call's write-backs leave of its
  output array (from the buffer contents the first call left), and the two arguments as launched. The statement holds
  for any float values.
-/
import proofs.«139674_j51719996178701_2_alg».proof.Proof.Gen.KernelIdeal.Frame

set_option maxRecDepth 16384

noncomputable section

namespace Cert.KernelIdeal.ProgramRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After both calls the result buffer holds the second call's output array as its write-backs leave it. -/
theorem result_buffer (c : Dev nD) : W2 m ρ c (Proc.devRef .tc main_v1) = (dat1 (V1 m ρ) c).arrAt 2 cfg1.N :=
  W2_arr m ρ c 2

set_option backward.isDefEq.respectTransparency.types false in
/-- The run: termination, no fault, the result buffer named, the arguments unchanged. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (result_buffer m ρ c),
       (h c _ (mem_uc main_arg0 (by decide))).trans (W2_main_arg0 m ρ c),
       (h c _ (mem_uc main_arg1 (by decide))).trans (W2_main_arg1 m ρ c)⟩)

end Cert.KernelIdeal.ProgramRun

end
-- ==== Proof.KernelValue.lean ====
/-
  The program's result, at the ideal values, is `G` of its two arguments.

  The second call's output is the dense product of the arrays it finds: the activations, which the first call never
  touches, and the first call's output, which is the binarized weight of the weight as launched. Chained, the result
  buffer ends at `dense x (binW w) = G x w`.
-/
import proofs.«139674_j51719996178701_2_alg».proof.Proof.BinValue
import proofs.«139674_j51719996178701_2_alg».proof.Proof.DenseValue
import proofs.«139674_j51719996178701_2_alg».proof.Proof.ProgramRun

noncomputable section

namespace Cert.KernelIdeal.KernelValue

open Cert.KernelIdeal Cert.KernelIdeal.Gen Idealize.ShloMosaic Idealize.ShloMosaic.TcCoe Idealize.SL.Sem
open Cert.BinaryDense

variable (m : (ℓ : Loc nD τ sig) → Buf (Elt Ideal) ℓ) (ρ : Dev nD → PrngReg)

/-- The second call finds the activations as launched: the first call's arrays are the weight and its own output. -/
theorem entry_activations (c : Dev nD) : V1 m ρ c main_arg0 = m ((c : Thread nD τ).loc main_arg0) :=
  W1_of_ne m ρ c main_arg0 (by decide)

/-- The second call finds, in the first call's output array, the binarized weight of the weight as launched. -/
theorem entry_binarized (c : Dev nD) : V1 m ρ c main_v0 = binW (m ((c : Thread nD τ).loc main_arg1)) :=
  (W1_arr m ρ c 1).trans (BinValue.final (V0 m ρ) c)

/-- The second call's output array after the run is `G` of the arguments as launched. -/
theorem result_eq (c : Dev nD) :
    (dat1 (V1 m ρ) c).arrAt 2 cfg1.N = G (m ((c : Thread nD τ).loc main_arg0)) (m ((c : Thread nD τ).loc main_arg1)) := by
  rw [DenseValue.final (V1 m ρ) c, entry_activations m ρ c, entry_binarized m ρ c]
  rfl

/-- The run at the ideal values: the result buffer at `G` of the arguments, the arguments unchanged. -/
theorem run : θ_run defs (onTc (τ := τ) (main (F := Ideal))) ⟨m, fun _ => 0, ρ⟩ (fun r => ∀ c : Dev nD,
      r.2.mem ((c.tc : Thread nD τ).loc main_v1) = G (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ c), (h c).2⟩) (ProgramRun.run_named m ρ)

end Cert.KernelIdeal.KernelValue

end
-- ==== Proof.lean ====
/-
  A binarized linear layer: `x @ sign(sign(w) + 1/2)ᵀ` for activations `x` of 16384 × 2048 and a weight `w` of 2048 × 2048.

  The kernel program does it in two calls. The first walks the weight in 8 blocks of 256 rows and writes
  `bin w = sign (sign w + 1/2)` entry by entry, the sign spelt by comparisons and selects (at the ideal values: `-1`
  below zero, `1` above, the entry itself at zero — the extended reals' `sign` on every extended real, the infinities
  included). The second walks the activations in 32 blocks of 512 rows and contracts each block's second axis against
  the second axis of the whole binarized array, into zero. The reference takes the host's sign twice with one half
  added in between, transposes, and contracts the activations' second axis against the transposed array's first.

  At the ideal values both results at (p, q) are the SAME sum `∑ k, x[p, k] · bin (w[q, k])` over the 2048 contraction
  positions, term for term and in the same order: no law of the extended reals beyond the definitions is used, and
  the finiteness of the inputs is never opened.
    · `Proof/Spec.lean`        — `bin`, `dense`, `G`;
    · `Proof/RefValue.lean`    — the reference's last stage is `G` of its arguments;
    · `Proof/BinValue.lean`    — the first call's output array is `binW` of the weight it finds;
    · `Proof/DenseValue.lean`  — the second call's output array is `dense` of the two arrays it finds;
    · `Proof/ProgramRun.lean`  — the program's run with its result buffer named;
    · `Proof/KernelValue.lean` — chained: the program's result is `G` of its arguments.
  The three frames are the generated ones (the reference's is its generated run with the result dropped); the two
  places where the word-level body builds ±1 from a sign bit are the sign-bit rule's statement at the first call's
  block shape.
-/
import proofs.«139674_j51719996178701_2_alg».proof.Defs
import proofs.«139674_j51719996178701_2_alg».proof.Proof.Gen.Kernel
import proofs.«139674_j51719996178701_2_alg».proof.Proof.Gen.Kernel.Frame
import proofs.«139674_j51719996178701_2_alg».proof.Proof.Gen.KernelIdeal
import proofs.«139674_j51719996178701_2_alg».proof.Proof.Gen.KernelIdeal.Frame
import proofs.«139674_j51719996178701_2_alg».proof.Proof.Gen.ReferenceIdeal
import proofs.«139674_j51719996178701_2_alg».proof.Proof.Gen.Pre_finite_inputs
import proofs.«139674_j51719996178701_2_alg».proof.Proof.Gen.ReferenceIdeal.Run
import proofs.«139674_j51719996178701_2_alg».proof.Proof.Gen.ReferenceIdeal.Read
import proofs.«139674_j51719996178701_2_alg».proof.Proof.RefValue
import proofs.«139674_j51719996178701_2_alg».proof.Proof.KernelValue

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- So does the idealized program. -/
theorem frame_ideal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The two places where the word-level body builds ±1 from a sign bit: the rule's statement at the block's shape. -/
theorem preserves : Cert.preserves_Kernel_KernelIdeal :=
  ⟨IdealRules.sign_bit.statement Cert.KernelIdeal.S256x2048 .f32, IdealRules.sign_bit.statement Cert.KernelIdeal.S256x2048 .f32⟩

/-- Both programs end with `G` of the (agreeing) arguments in their result buffers. -/
theorem algebraic : Cert.algebraic_KernelIdeal_ReferenceIdeal := by
  intro m ρ m' ρ' _ hagree
  refine ⟨fun c => Cert.BinaryDense.G (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
